-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : IVec S16384 32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_c_0 : IVec S_ 32 := constantI S_ 32 1#32
  let main_v4 : IVec S16384 32 := broadcastInDim S16384 ![] bcast_S_S16384 main_c_0
  let main_v5 : IVec S16384 1 := cmpi .eq main_arg1 main_v4
  let main_c_1 : IVec S_ 1 := constantI S_ 1 0#1
  let main_v6 : IVec S_ 1 := (fun x v => Host.reduce IntOp.ori x v reducesTo_S16384_S_d0 h_S_) main_v5 main_c_1
  let main_v7 : IVec S_ 1 := andi main_v3 main_v6
  let main_c_2 : IVec S_ 32 := constantI S_ 32 0#32
  let main_v8 : IVec S16384 32 := broadcastInDim S16384 ![] bcast_S_S16384 main_c_2
  let main_v9 : IVec S16384 1 := cmpi .eq main_arg1 main_v8
  let main_c_3 : IVec S_ 1 := constantI S_ 1 0#1
  let main_v10 : IVec S_ 1 := (fun x v => Host.reduce IntOp.ori x v reducesTo_S16384_S_d0 h_S_) main_v9 main_c_3
  let main_v11 : IVec S_ 1 := andi main_v7 main_v10
  main_v11
-- ==== Kernel.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16x1x1 : Shape := ⟨3, ![16, 1, 1]⟩
abbrev S1024x1 : Shape := ⟨2, ![1024, 1]⟩
abbrev S1x2048 : Shape := ⟨2, ![1, 2048]⟩
abbrev S1x1x1 : Shape := ⟨3, ![1, 1, 1]⟩
abbrev S1x1 : Shape := ⟨2, ![1, 1]⟩
abbrev S1024x2048 : Shape := ⟨2, ![1024, 2048]⟩
abbrev S1024 : Shape := ⟨1, ![1024]⟩
abbrev S1 : Shape := ⟨1, ![1]⟩

abbrev nBuf : Space → Nat
  | .hbm => 49
  | .vmem => 11
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S16384x1, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S1x16384, .f32⟩
  | .hbm, ⟨29, _⟩ => ⟨S16384, .f32⟩
  | .hbm, ⟨30, _⟩ => ⟨S16384x1, .f32⟩
  | .hbm, ⟨31, _⟩ => ⟨S16384, .f32⟩
  | .hbm, ⟨32, _⟩ => ⟨S1x16384, .f32⟩
  | .hbm, ⟨33, _⟩ => ⟨S16x1x1, .f32⟩
  | .hbm, ⟨34, _⟩ => ⟨S_, .f32⟩
  | .hbm, ⟨35, _⟩ => ⟨S_, .f32⟩
  | .hbm, ⟨36, _⟩ => ⟨S16384, .i32⟩
  | .hbm, ⟨37, _⟩ => ⟨S_, .i32⟩
  | .hbm, ⟨38, _⟩ => ⟨S_, .i32⟩
  | .hbm, ⟨39, _⟩ => ⟨S16384, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x2048, .f32⟩
  | .local _ .vmem, ⟨3, _⟩ => ⟨S1x2048, .f32⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_14 : BitVec 32 := 0#32
  let v31 : BitVec 1 := Scalar.cmpi .ne v30 c0_i32_14
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S16384 : S_.BroadcastsInDim S16384 (![] : Fin 0 → Fin S16384.rank)
  shapeCasts_S16384_S16384x1 : S16384.ShapeCasts S16384x1
  shapeCasts_S16384_S1x16384 : S16384.ShapeCasts S1x16384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  broadcasts_S1024x1_S1024x2048 : S1024x1.Broadcasts S1024x2048
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S16x1x1_S_d0_1_2 : S16x1x1.ReducesTo [0, 1, 2] S_
  h_S_ : 0 < S_.numel
  natLt_1_32 : 1 < 32
  reducesTo_S16384_S_d0 : S16384.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .f32 = 32 ∨ (Rect.block (s := S1x16384) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x16384.size a
  hwx0_3 : ∀ i : grid0.Coords, EltTy.bits .f32 = 32 ∨ (Rect.block (s := S1x16384) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S16x1x1.size a
  hwx0_4 : ∀ i : grid0.Coords, EltTy.bits .f32 = 32 ∨ (Rect.block (s := S16x1x1) S1x1x1.size (cc0_transform_4 i) (hinb0_4 i)).WholeWords (EltTy.packing .f32)

variable [Facts₀]

abbrev win0_0 : Pipeline.Window sig grid0 :=
  Pipeline.Window.ofSpec (Memref.whole main_v11) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384 : Shape := ⟨1, ![16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 54
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S1x16384, .f32⟩
  | .hbm, ⟨25, _⟩ => ⟨S16384x1, .f32⟩
  | .hbm, ⟨26, _⟩ => ⟨S16384x16384, .f32⟩
  | .hbm, ⟨27, _⟩ => ⟨S16384x16384, .f32⟩
  | .hbm, ⟨28, _⟩ => ⟨S16384x16384, .f32⟩
  | .hbm, ⟨29, _⟩ => ⟨S_, .f32⟩
  | .hbm, ⟨30, _⟩ => ⟨S16384x16384, .f32⟩
  | .hbm, ⟨31, _⟩ => ⟨S16384x16384, .f32⟩
  | .hbm, ⟨32, _⟩ => ⟨S16384x1, .i1⟩
  | .hbm, ⟨33, _⟩ => ⟨S1x16384, .i1⟩
  | .hbm, ⟨34, _⟩ => ⟨S16384x16384, .i1⟩
  | .hbm, ⟨35, _⟩ => ⟨S16384x16384, .i1⟩
  | .hbm, ⟨36, _⟩ => ⟨S16384x16384, .i1⟩
  | .hbm, ⟨37, _⟩ => ⟨S16384x16384, .f32⟩
  | .hbm, ⟨38, _⟩ => ⟨S_, .f32⟩
  | .hbm, ⟨39, _⟩ => ⟨S16384x16384, .f32⟩
  | .hbm, ⟨40, _⟩ => ⟨S16384x16384, .f32⟩
  | .hbm, ⟨41, _⟩ => ⟨S16384, .i32⟩
  | .hbm, ⟨42, _⟩ => ⟨S_, .i32⟩
  | .hbm, ⟨43, _⟩ => ⟨S_, .i32⟩
  | .hbm, ⟨44, _⟩ => ⟨S16384, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S16384x16384, .f32⟩
  | .hbm, ⟨50, _⟩ => ⟨S16384x16384, .f32⟩
  | .hbm, ⟨51, _⟩ => ⟨S_, .f32⟩
  | .hbm, ⟨52, _⟩ => ⟨S_, .f32⟩
  | .hbm, ⟨53, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  bcast_S_S16384x16384 : S_.BroadcastsInDim S16384x16384 (![] : Fin 0 → Fin S16384x16384.rank)
  natLt_1_32 : 1 < 32
  reducesTo_S16384_S_d0 : S16384.ReducesTo [0] S_
  h_S_ : 0 < S_.numel
  reducesTo_S16384x16384_S_d0_1 : S16384x16384.ReducesTo [0, 1] S_

variable [Facts₀]

class Facts : Prop extends Facts₀ where

variable [Facts]
-- ==== Proof.PairSum.lean ====
/-
  The mathematics of the pairwise hinge sum, on the extended reals, with no program in sight.

  For scores `y`, a row mask `neg` and a column mask `pos` (each entry 0 or 1), a margin `g` and a cap `z`, one pair
  `(i, j)` contributes `(neg i · pos j) · h · h` with `h = min ((y j − y i) − g) z`. The sum over all pairs may be
  taken flat, or tile by tile: rows cut into `A` bands of `a`, columns into `B` bands of `b`, inside a tile each row
  summed first over the tile's columns with the column mask inside, then weighted by the row mask, the tiles of one
  row band added up one after the other from zero. Both give one value. Only the commutative and associative laws of
  `+` and `·` are used, which hold on all of `EReal`, and one distributive step, `(∑ a) · m = ∑ (a · m)`, which holds
  because the mask `m` is 0 or 1 — so nothing here needs the scores to be finite.
-/
import Mathlib

open scoped BigOperators

noncomputable section

namespace Cert.PairSum

/-- Multiplying a sum by a mask value (0 or 1) distributes, whatever the summands are. -/
theorem sum_mul_mask {ι : Type} (s : Finset ι) (f : ι → EReal) (m : EReal) (hm : m = 0 ∨ m = 1) :
    (∑ i ∈ s, f i) * m = ∑ i ∈ s, f i * m := by
  rcases hm with rfl | rfl
  · simp
  · simp

/-- Taking the margin off before or after the row's score is the same difference. -/
theorem sub_margin_comm (p q g : EReal) : (p - g) - q = (p - q) - g := by
  rw [sub_eq_add_neg, sub_eq_add_neg, sub_eq_add_neg, sub_eq_add_neg, add_right_comm]

/-- One pair's contribution, with the column mask inside the square's product and the row mask outside, is the
    product of the two masks times the hinge twice. -/
theorem pair_regroup (p q h : EReal) : (p * (h * h)) * q = ((q * p) * h) * h := by
  rw [mul_comm q p, mul_assoc p q h, mul_assoc p (q * h) h, mul_assoc q h h, mul_assoc p (h * h) q,
    mul_comm (h * h) q]

/-- A running sum started from `0 + P 0`. -/
def chain (P : ℕ → EReal) : ℕ → EReal
  | 0 => 0 + P 0
  | n + 1 => chain P n + P (n + 1)

theorem chain_eq_sum (P : ℕ → EReal) (n : ℕ) : chain P n = ∑ k ∈ Finset.range (n + 1), P k := by
  induction n with
  | zero => simp [chain]
  | succ n ih => rw [chain, ih, Finset.sum_range_succ (n := n + 1)]

/-- A sum over `A · a` consecutive numbers, band by band. -/
theorem sum_bands {M : Type} [AddCommMonoid M] (A a : ℕ) (f : ℕ → M) :
    ∑ i : Fin (A * a), f i.val = ∑ p : Fin A, ∑ r : Fin a, f (r.val + a * p.val) := by
  calc ∑ i : Fin (A * a), f i.val
      = ∑ x : Fin A × Fin a, f (finProdFinEquiv x).val :=
        (Fintype.sum_equiv finProdFinEquiv (fun x => f (finProdFinEquiv x).val) (fun i => f i.val) (fun _ => rfl)).symm
    _ = ∑ p : Fin A, ∑ r : Fin a, f (r.val + a * p.val) := by
        rw [Fintype.sum_prod_type]; rfl

/-- The hinge of the pair `(i, j)`. -/
def hinge (y : ℕ → EReal) (g z : EReal) (i j : ℕ) : EReal := min ((y j - y i) - g) z

/-- The flat sum over all pairs. -/
def flat (N : ℕ) (y neg pos : ℕ → EReal) (g z : EReal) : EReal :=
  ∑ i : Fin N, ∑ j : Fin N, ((neg i.val * pos j.val) * hinge y g z i.val j.val) * hinge y g z i.val j.val

/-- One tile's contribution: rows `r + a·p`, columns `c + b·q`; the margin is taken off the column's score first. -/
def tile (a b : ℕ) (y neg pos : ℕ → EReal) (g z : EReal) (p q : ℕ) : EReal :=
  ∑ r : Fin a, (∑ c : Fin b, pos (c.val + b * q) *
      (min ((y (c.val + b * q) - g) - y (r.val + a * p)) z * min ((y (c.val + b * q) - g) - y (r.val + a * p)) z))
    * neg (r.val + a * p)

/-- The tiled sum: per row band the tiles accumulated one after the other, then the bands added. -/
def tiled (A a B b : ℕ) (y neg pos : ℕ → EReal) (g z : EReal) : EReal :=
  ∑ p : Fin A, chain (fun q => tile a b y neg pos g z p.val q) B

/-- The tiled sum is the flat sum. -/
theorem tiled_eq_flat (A a B b : ℕ) (y neg pos : ℕ → EReal) (g z : EReal)
    (hneg : ∀ n, neg n = 0 ∨ neg n = 1) (hAB : A * a = (B + 1) * b) :
    tiled A a B b y neg pos g z = flat (A * a) y neg pos g z := by
  unfold tiled flat
  have inner : ∀ i : ℕ, ∑ j : Fin (A * a), ((neg i * pos j.val) * hinge y g z i j.val) * hinge y g z i j.val
      = ∑ q : Fin (B + 1), ∑ c : Fin b, ((neg i * pos (c.val + b * q.val)) * hinge y g z i (c.val + b * q.val))
          * hinge y g z i (c.val + b * q.val) := by
    intro i
    rw [← sum_bands (B + 1) b (fun j => ((neg i * pos j) * hinge y g z i j) * hinge y g z i j)]
    exact Fintype.sum_equiv (finCongr hAB) _ _ (fun _ => rfl)
  rw [sum_bands A a (fun i => ∑ j : Fin (A * a), ((neg i * pos j.val) * hinge y g z i j.val) * hinge y g z i j.val)]
  refine Finset.sum_congr rfl fun p _ => ?_
  rw [chain_eq_sum, ← Fin.sum_univ_eq_sum_range (fun q => tile a b y neg pos g z p.val q) (B + 1)]
  unfold tile
  rw [Finset.sum_comm]
  refine Finset.sum_congr rfl fun r _ => ?_
  rw [inner]
  refine Finset.sum_congr rfl fun q _ => ?_
  rw [sum_mul_mask _ _ _ (hneg _)]
  refine Finset.sum_congr rfl fun c _ => ?_
  rw [pair_regroup, sub_margin_comm]
  rfl

end Cert.PairSum

end
-- ==== Proof.LibPositions.lean ====
/-
  Reading a length-16384 array by natural-number position.

  The tiles of the pairwise sum address rows and columns by position (`r + 1024·p`, `c + 2048·q`); the arrays are
  indexed by `Fin 16384`. `atNat v k` is `v` at position `k` (0 past the end, which no sum reaches), so that statements
  about tiles can speak of plain numbers.
-/
import Idealize.ShloMosaic.Lib.ValueIdx
import Idealize.ShloMosaic.PureOps.Ideal

noncomputable section

namespace Cert.LibPositions

open Idealize.ShloMosaic Idealize.ShloMosaic.ValueIdx

/-- The entry at position `k`. -/
def atNat {n : ℕ} (v : (⟨1, ![n]⟩ : Shape).Idx → EReal) (k : ℕ) : EReal :=
  if h : k < n then v (ix1 ⟨k, h⟩) else 0

theorem atNat_val {n : ℕ} (v : (⟨1, ![n]⟩ : Shape).Idx → EReal) (i : Fin n) : atNat v i.val = v (ix1 i) :=
  dif_pos i.isLt

theorem atNat_of_lt {n : ℕ} (v : (⟨1, ![n]⟩ : Shape).Idx → EReal) (k : ℕ) (h : k < n) : atNat v k = v (ix1 ⟨k, h⟩) :=
  dif_pos h

/-- A bit read as a number is 0 or 1. -/
theorem bit_zero_or_one (b : BitVec 1) : (((b.toNat : ℝ) : EReal) = 0) ∨ (((b.toNat : ℝ) : EReal) = 1) := by
  have : b = 0#1 ∨ b = 1#1 := by revert b; decide
  rcases this with rfl | rfl
  · left; simp
  · right; simp

/-- A mask of bits read by position is 0 or 1 everywhere. -/
theorem atNat_mask {n : ℕ} (b : (⟨1, ![n]⟩ : Shape).Idx → BitVec 1) (k : ℕ) :
    atNat (fun i => (((b i).toNat : ℝ) : EReal)) k = 0 ∨ atNat (fun i => (((b i).toNat : ℝ) : EReal)) k = 1 := by
  unfold atNat
  split
  · exact bit_zero_or_one _
  · exact Or.inl rfl

/-- The `and` of two bits, read as a number, is the product of the bits read as numbers. -/
theorem and_bits (p q : BitVec 1) :
    (((IntOp.andi p q).toNat : ℝ) : EReal) = ((p.toNat : ℝ) : EReal) * ((q.toNat : ℝ) : EReal) := by
  have hp : p = 0#1 ∨ p = 1#1 := by revert p; decide
  have hq : q = 0#1 ∨ q = 1#1 := by revert q; decide
  rcases hp with rfl | rfl <;> rcases hq with rfl | rfl <;> simp [IntOp.andi]

end Cert.LibPositions

end
-- ==== Proof.RefValue.lean ====
/-
  The reference's result, read at the ideal values.

  The reference spreads the scores `y` along rows and along columns of a 16384 × 16384 matrix, takes
  `h = min ((y b − y a) − margin) 0` at `(a, b)`, multiplies by the bit `neg a ∧ pos b` read as a number and by `h` twice,
  adds up all entries from zero and divides by the number of pairs. Entry by entry the bit of the `and` is the product
  of the two bits, so the numerator is the flat pair sum of the scores and the two masks read by position.
-/
import proofs.«161224_j532575944928_2_alg».proof.Proof.Gen.ReferenceIdeal.Read
import proofs.«161224_j532575944928_2_alg».proof.Proof.PairSum
import proofs.«161224_j532575944928_2_alg».proof.Proof.LibPositions
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.LibPositions Cert.PairSum

/-- The margin taken off every difference, and the hinge's cap: the two literals' values. -/
abbrev margin : EReal := Ideal.ofBits .f32 0x3F333333#32
abbrev cap : EReal := Ideal.ofBits .f32 0x00000000#32

variable (x0 : (⟨S16384, .f32⟩ : BufTy).Contents (Elt Ideal)) (x1 : (⟨S16384, .i32⟩ : BufTy).Contents (Elt Ideal))

/-- The clipped scores, the row mask (label 0) and the column mask (label 1), by position. -/
def scoreAt : ℕ → EReal := atNat (n := 16384) (val_main_v6 (F := Ideal) x0)
def negAt : ℕ → EReal := atNat (n := 16384) (fun i => (((val_main_v10 (F := Ideal) x1 i).toNat : ℝ) : EReal))
def posAt : ℕ → EReal := atNat (n := 16384) (fun i => (((val_main_v8 (F := Ideal) x1 i).toNat : ℝ) : EReal))

theorem negAt_mask (k : ℕ) : negAt x1 k = 0 ∨ negAt x1 k = 1 := atNat_mask _ k
theorem posAt_mask (k : ℕ) : posAt x1 k = 0 ∨ posAt x1 k = 1 := atNat_mask _ k

/-- One entry of the reference's matrix is the pair's contribution. -/
theorem entry_apply (a b : Fin 16384) :
    val_main_v33 (F := Ideal) x0 x1 (ix2 a b)
      = ((negAt x1 a.val * posAt x1 b.val) * hinge (scoreAt x0) margin cap a.val b.val) * hinge (scoreAt x0) margin cap a.val b.val := by
  have e13 : idx_main_v11 (idx_main_v13 (ix2 a b)) = ix1 b := funext fun d => Fin.ext (by match d with | ⟨0, _⟩ => rfl)
  have e14 : idx_main_v12 (idx_main_v14 (ix2 a b)) = ix1 a := funext fun d => Fin.ext (by match d with | ⟨0, _⟩ => rfl)
  have e20 : idx_main_v18 (idx_main_v20 (ix2 a b)) = ix1 a := funext fun d => Fin.ext (by match d with | ⟨0, _⟩ => rfl)
  have e21 : idx_main_v19 (idx_main_v21 (ix2 a b)) = ix1 b := funext fun d => Fin.ext (by match d with | ⟨0, _⟩ => rfl)
  rw [val_main_v33_apply, val_main_v32_apply, val_main_v23_apply, val_main_v22_apply, val_main_v20_apply, val_main_v18_apply,
    val_main_v21_apply, val_main_v19_apply, val_main_v25_apply, val_main_v17_apply, val_main_v15_apply, val_main_v13_apply,
    val_main_v11_apply, val_main_v14_apply, val_main_v12_apply, val_main_v16_apply, val_main_v24_apply, val_main_cst_4_apply,
    val_main_cst_5_apply, e13, e14, e20, e21]
  unfold scoreAt negAt posAt hinge
  rw [atNat_val, atNat_val, atNat_val, atNat_val, ← and_bits]
  rfl

/-- The sum of all entries is the flat pair sum. -/
theorem sum_eq_flat :
    ∑ j : S16384x16384.Idx, val_main_v33 (F := Ideal) x0 x1 j = flat 16384 (scoreAt x0) (negAt x1) (posAt x1) margin cap := by
  rw [sum_idx2]
  unfold flat
  exact Finset.sum_congr rfl fun a _ => Finset.sum_congr rfl fun b _ => entry_apply x0 x1 a b

/-- The reference's result: the flat pair sum over the number of pairs. -/
theorem result_apply (i : S_.Idx) :
    val_main_v35 (F := Ideal) x0 x1 i
      = Ideal.div (flat 16384 (scoreAt x0) (negAt x1) (posAt x1) margin cap) (val_main_v31 (F := Ideal) x1 i) := by
  rw [val_main_v35_apply, val_main_v34_apply, val_main_cst_8_apply, sum_eq_flat]
  simp only [Ideal.hostDivf_def, Ideal.ofBits_def, Ideal.ofBits_zero_f32, zero_add]

end Cert.ReferenceIdeal.RefValue

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibRowReduce.lean ====
/-
  A matrix reduced along its rows, read at a row, at the ideal values: the lane sum of `[a, b]` at row `r` is the sum
  over `c` of the entries `(r, c)`, and the lane maximum is the fold of `max`, from the value the accumulator's word
  denotes, over the same entries. The reduced index with the coordinate `c` put back on the dropped axis is `(r, c)`.
-/
import Idealize.ShloMosaic.Lib.ValueIdx
import Idealize.ShloMosaic.PureOps.Ideal.Laws

noncomputable section

namespace Cert.LibRowReduce

open Idealize.ShloMosaic Idealize.ShloMosaic.ValueIdx

/-- Row `r` of `[a, b]` with the column `c` put back is the entry `(r, c)`. -/
theorem lift_row {a b : ℕ} (h : (⟨2, ![a, b]⟩ : Shape).Reduces [1] ⟨1, ![a]⟩) (r : Fin a) (c : Fin b) :
    h.lift (ix1 r) c = ix2 r c := by
  funext d
  apply Fin.ext
  match d with
  | ⟨0, _⟩ => rfl
  | ⟨1, _⟩ => rfl

/-- The lane sum of a matrix at row `r` is the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src (lift_row h r c))

/-- The lane maximum of a matrix at row `r` is the fold of `max` over the row's entries, from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (congrArg ((Finset.univ : Finset (Fin b)).fold max (Ideal.ofBits φ acc)) (funext fun c => congrArg src (lift_row h r c)))

end Cert.LibRowReduce

end
-- ==== Proof.LibMinReduce.lean ====
/-
  A matrix reduced by a minimum along its rows or along its columns, and summed along its columns, read at the
  reduced index, at the ideal values: the lane minimum of `[a, b]` at row `r` is the fold of `min`, from the value
  the accumulator's word denotes, over the entries `(r, c)` of the row; the sublane minimum at column `c` the same
  fold over the entries `(r, c)` of the column; the sublane sum at column `c` the sum of the column's entries.
  A minimum folded from `⊤` is the infimum. (The lane sum and the row's lifted index are the row-reduction module's.)
-/
import proofs.«161224_j532575944928_2_alg».proof.Proof.LibRowReduce
import Idealize.ShloMosaic.Lib.ValueIdx
import Idealize.ShloMosaic.PureOps.Ideal.Laws

noncomputable section

namespace Cert.LibMinReduce

open Idealize.ShloMosaic Idealize.ShloMosaic.ValueIdx

/-- Column `c` of `[a, b]` with the row `r` put back is the entry `(r, c)`. -/
theorem lift_col {a b : ℕ} (h : (⟨2, ![a, b]⟩ : Shape).Reduces [0] ⟨1, ![b]⟩) (c : Fin b) (r : Fin a) :
    h.lift (ix1 c) r = ix2 r c := by
  funext d
  apply Fin.ext
  match d with
  | ⟨0, _⟩ => rfl
  | ⟨1, _⟩ => rfl

/-- A minimum reduction over one axis, at the ideal values: the fold of `min` from the accumulator's value over that
    axis's coordinates. -/
theorem multiReduction_minimumf_single {s t : Shape} {φ : FTy} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

/-- The lane minimum of a matrix at row `r`: the fold of `min` over the row's entries. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) (fun c => src (ix2 r c)) :=
  (multiReduction_minimumf_single src acc h hφ hacc (ix1 r)).trans
    (congrArg ((Finset.univ : Finset (Fin b)).fold min (Ideal.ofBits φ acc)) (funext fun c => congrArg src (Cert.LibRowReduce.lift_row h r c)))

/-- The sublane minimum of a matrix at column `c`: the fold of `min` over the column's entries. -/
theorem colMin_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (c : Fin b) :
    multiReduction .minimumf [0] ⟨1, ![b]⟩ src acc h hφ hacc (ix1 c)
      = (Finset.univ : Finset (Fin a)).fold min (Ideal.ofBits φ acc) (fun r => src (ix2 r c)) :=
  (multiReduction_minimumf_single src acc h hφ hacc (ix1 c)).trans
    (congrArg ((Finset.univ : Finset (Fin a)).fold min (Ideal.ofBits φ acc)) (funext fun r => congrArg src (lift_col h c r)))

/-- The sublane sum of a matrix at column `c`: the sum of the column's entries. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (lift_col h c r))

/-- A minimum folded from the top element is the infimum. -/
theorem fold_min_top {ι : Type} (s : Finset ι) (f : ι → EReal) : s.fold min (⊤ : EReal) f = s.inf f := rfl

end Cert.LibMinReduce

end
-- ==== Proof.Tile.lean ====
/-
  One tile's arithmetic, read at the ideal values.

  At a grid point the body holds a band of 1024 row scores `yr` (a column), a band of 2048 column scores `yc` with the
  margin already taken off (a row), the column mask `ps` (a row) and the row mask `ng` (a column). It forms the
  1024 × 2048 matrix of `ps c · (h · h)` with `h = min (yc c − yr r) 0`, sums every row over its 2048 lanes, weights row
  `r` by `ng r`, sums the 1024 weighted rows, and adds the result to the one number carried from the tile before.
  The layout steps between (a row or a column spread over the matrix, the lane sums stood up as a column, the single
  total recast as a 1 × 1 block) move no value.
-/
import proofs.«161224_j532575944928_2_alg».proof.Proof.Gen.KernelIdeal.Skeleton
import proofs.«161224_j532575944928_2_alg».proof.Proof.LibKeepdims
import proofs.«161224_j532575944928_2_alg».proof.Proof.LibRowReduce
import proofs.«161224_j532575944928_2_alg».proof.Proof.LibMinReduce
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open Cert.LibKeepdims Cert.LibRowReduce Cert.LibMinReduce

/-- The cap of the hinge: the zero word's value. -/
abbrev cap : EReal := Ideal.ofBits .f32 0x00000000#32

/-- The masked squared hinge of row `r` and lane `c` of a tile. -/
def entry (yr : Vec Ideal S1024x1 .f32) (yc ps : Vec Ideal S1x2048 .f32) (r : Fin 1024) (c : Fin 2048) : EReal :=
  ps (ix2 (0 : Fin 1) c) * (min (yc (ix2 (0 : Fin 1) c) - yr (ix2 r (0 : Fin 1))) cap
    * min (yc (ix2 (0 : Fin 1) c) - yr (ix2 r (0 : Fin 1))) cap)

/-- A tile's total: every row's lane sum weighted by the row mask, the rows added. -/
def total (yr : Vec Ideal S1024x1 .f32) (yc ps : Vec Ideal S1x2048 .f32) (ng : Vec Ideal S1024x1 .f32) : EReal :=
  ∑ r : Fin 1024, (∑ c : Fin 2048, entry yr yc ps r c) * ng (ix2 r (0 : Fin 1))

/-- The tile's matrix: the column mask spread over the rows, times the squared hinge of the spread scores. -/
def matrix (yr : Vec Ideal S1024x1 .f32) (yc ps : Vec Ideal S1x2048 .f32) : FVec Ideal S1024x2048 .f32 :=
  mulf (broadcastTo S1024x2048 ps broadcasts_S1x2048_S1024x2048)
    (mulf (minimumf (subf (broadcastTo S1024x2048 yc broadcasts_S1x2048_S1024x2048)
        (broadcastTo S1024x2048 yr broadcasts_S1024x1_S1024x2048)) (broadcast S1024x2048 (Scalar.ofBits .f32 0x00000000#32)))
      (minimumf (subf (broadcastTo S1024x2048 yc broadcasts_S1x2048_S1024x2048)
        (broadcastTo S1024x2048 yr broadcasts_S1024x1_S1024x2048)) (broadcast S1024x2048 (Scalar.ofBits .f32 0x00000000#32))))

theorem matrix_apply (yr : Vec Ideal S1024x1 .f32) (yc ps : Vec Ideal S1x2048 .f32) (r : Fin 1024) (c : Fin 2048) :
    matrix yr yc ps (ix2 r c) = entry yr yc ps r c := by
  show broadcastTo S1024x2048 ps broadcasts_S1x2048_S1024x2048 (ix2 r c)
      * (min (broadcastTo S1024x2048 yc broadcasts_S1x2048_S1024x2048 (ix2 r c)
            - broadcastTo S1024x2048 yr broadcasts_S1024x1_S1024x2048 (ix2 r c)) cap
          * min (broadcastTo S1024x2048 yc broadcasts_S1x2048_S1024x2048 (ix2 r c)
            - broadcastTo S1024x2048 yr broadcasts_S1024x1_S1024x2048 (ix2 r c)) cap) = _
  rw [broadcastTo_1b_ab_apply ps, broadcastTo_1b_ab_apply yc, broadcastTo_a1_ab_apply yr]
  rfl

/-- The weighted rows, as the column the body forms. -/
def weighted (yr : Vec Ideal S1024x1 .f32) (yc ps : Vec Ideal S1x2048 .f32) (ng : Vec Ideal S1024x1 .f32) : FVec Ideal S1024x1 .f32 :=
  mulf (shapeCast S1024x1 (multiReduction .add [1] S1024 (matrix yr yc ps) 0x00000000#32 reduces_S1024x2048_S1024 (.inl rfl) rfl)
    shapeCasts_S1024_S1024x1) ng

theorem weighted_apply (yr : Vec Ideal S1024x1 .f32) (yc ps : Vec Ideal S1x2048 .f32) (ng : Vec Ideal S1024x1 .f32) (r : Fin 1024) :
    weighted yr yc ps ng (ix2 r (0 : Fin 1)) = (∑ c : Fin 2048, entry yr yc ps r c) * ng (ix2 r (0 : Fin 1)) := by
  show shapeCast S1024x1 (multiReduction .add [1] S1024 (matrix yr yc ps) 0x00000000#32 reduces_S1024x2048_S1024 (.inl rfl) rfl)
      shapeCasts_S1024_S1024x1 (ix2 r (0 : Fin 1)) * ng (ix2 r (0 : Fin 1)) = _
  refine congrArg (· * ng (ix2 r (0 : Fin 1))) ?_
  refine (shapeCast_a_a1_apply _ shapeCasts_S1024_S1024x1 r (0 : Fin 1)).trans ?_
  refine (rowSum_apply (matrix yr yc ps) 0x00000000#32 reduces_S1024x2048_S1024 (.inl rfl) rfl r).trans ?_
  exact Finset.sum_congr rfl fun c _ => matrix_apply yr yc ps r c

/-- The tile's total, as the 1 × 1 block the body forms. -/
def block (yr : Vec Ideal S1024x1 .f32) (yc ps : Vec Ideal S1x2048 .f32) (ng : Vec Ideal S1024x1 .f32) : FVec Ideal S1x1 .f32 :=
  shapeCast S1x1 (multiReduction .add [0] S1 (weighted yr yc ps ng) 0x00000000#32 reduces_S1024x1_S1 (.inl rfl) rfl) shapeCasts_S1_S1x1

theorem block_apply (yr : Vec Ideal S1024x1 .f32) (yc ps : Vec Ideal S1x2048 .f32) (ng : Vec Ideal S1024x1 .f32) (j : S1x1.Idx) :
    block yr yc ps ng j = total yr yc ps ng := by
  obtain ⟨p, q, rfl⟩ : ∃ (p : Fin 1) (q : Fin 1), j = ix2 p q := ⟨j 0, j 1, eq_ix2 j⟩
  unfold block total
  refine (shapeCast_a_a1_apply _ shapeCasts_S1_S1x1 p q).trans ?_
  refine (colSum_apply (weighted yr yc ps ng) 0x00000000#32 reduces_S1024x1_S1 (.inl rfl) rfl p).trans ?_
  refine Finset.sum_congr rfl fun r _ => ?_
  rw [Subsingleton.elim p (0 : Fin 1)]
  exact weighted_apply yr yc ps ng r

/-- The body's accumulating store: the carried number plus the tile's total. -/
theorem pay2_apply (yr : Vec Ideal S1024x1 .f32) (yc ps : Vec Ideal S1x2048 .f32) (ng : Vec Ideal S1024x1 .f32)
    (acc : Vec Ideal S1x1 .f32) (j : S1x1.Idx) :
    k0_pay2 (F := Ideal) yr yc ps ng acc j = acc j + total yr yc ps ng := by
  have e : k0_pay2 (F := Ideal) yr yc ps ng acc = addf acc (block yr yc ps ng) := by
    unfold k0_pay2 block weighted matrix
    simp only [shapeCast_self]
  rw [e]
  exact congrArg (acc j + ·) (block_apply yr yc ps ng j)

/-- The reset stores zero. -/
theorem pay1_apply (j : S1x1.Idx) : k0_pay1 (F := Ideal) j = 0 := by
  unfold k0_pay1
  rw [shapeCast_self]
  exact Ideal.ofBits_zero_f32

/-- The last store recasts the 1 × 1 block as 1 × 1 × 1. -/
theorem pay3_apply (v : Vec Ideal S1x1 .f32) (j : S1x1x1.Idx) : k0_pay3 (F := Ideal) v j = v (ix2 (0 : Fin 1) (0 : Fin 1)) := by
  unfold k0_pay3
  refine shapeCast_apply v shapeCasts_S1x1_S1x1x1 j _ ?_
  have h0 : (j 0).val = 0 := Nat.lt_one_iff.mp (show (j 0).val < 1 from (j 0).isLt)
  have h1 : (j 1).val = 0 := Nat.lt_one_iff.mp (show (j 1).val < 1 from (j 1).isLt)
  have h2 : (j 2).val = 0 := Nat.lt_one_iff.mp (show (j 2).val < 1 from (j 2).isLt)
  rw [Shape.rowMajor_val_two, Shape.rowMajor_val_three]
  simp [h0, h1, h2]

end Cert.KernelIdeal.Tile

end
-- ==== Proof.Blocks.lean ====
/-
  The four input blocks of a grid point, as pieces of the scores and the masks.

  Before the region the host clips the scores `y`, stands them up as a 16384 × 1 column (window 0) and lays `y − margin`
  out as a 1 × 16384 row (window 1), and does the same with the row mask (label 0, window 2) and the column mask
  (label 1, window 3). Grid point `t` is tile `(t / 8, t mod 8)`: it reads rows `1024·(t / 8) + r` of the columns and
  lanes `2048·(t mod 8) + c` of the rows. So the tile's total is the pairwise sum's tile of the scores and masks read by
  position.
-/
import proofs.«161224_j532575944928_2_alg».proof.Proof.Gen.KernelIdeal.Frame
import proofs.«161224_j532575944928_2_alg».proof.Proof.Gen.ReferenceIdeal.Read
import proofs.«161224_j532575944928_2_alg».proof.Proof.RefValue
import proofs.«161224_j532575944928_2_alg».proof.Proof.Tile
import proofs.«161224_j532575944928_2_alg».proof.Proof.LibKeepdims
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx
open Cert.LibPositions Cert.PairSum
open Cert.ReferenceIdeal.RefValue (scoreAt negAt posAt margin cap)
open Cert.ReferenceIdeal.Read (val_main_v6 val_main_v8 val_main_v10)

variable (m : (ℓ : Loc nD τ sig) → Buf (Elt Ideal) ℓ)

/-- The two argument arrays on a core. -/
abbrev scores (c : Dev nD) := m ((c.tc : Thread nD τ).loc main_arg0)
abbrev labels (c : Dev nD) := m ((c.tc : Thread nD τ).loc main_arg1)

/-- Which block of its array each window is on at a grid point: rows move with `t / 8`, lanes with `t mod 8`. -/
theorem win_index : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 3) = t.val / 8 ∧ win0_4.index t (1 : Fin 3) = 0 ∧ win0_4.index t (2 : Fin 3) = 0 :=
  (by decide +kernel : ∀ t : Fin grid0.N, _)

/-! ## The arrays as the region finds them -/

theorem rows_array (c : Dev nD) : (V m c main_v11 : S16384x1.Idx → EReal)
    = shapeCast S16384x1 (val_main_v6 (F := Ideal) (scores m c)) shapeCasts_S16384_S16384x1 := by
  dsimp only [Gen.V, Gen.V0]
  simp only [Gen.hostOps0, Gen.hostOps0_1, Gen.hostOps0_2, List.flatten_cons, List.flatten_nil, List.append_nil, List.cons_append, List.nil_append]
  after_results
  rfl

theorem cols_array (c : Dev nD) : (V m c main_v14 : S1x16384.Idx → EReal)
    = shapeCast S1x16384 (subf (val_main_v6 (F := Ideal) (scores m c))
        (broadcastInDim S16384 ![] bcast_S_S16384 (constant (F := Ideal) S_ .f32 0x3F333333#32))) shapeCasts_S16384_S1x16384 := by
  dsimp only [Gen.V, Gen.V0]
  simp only [Gen.hostOps0, Gen.hostOps0_1, Gen.hostOps0_2, List.flatten_cons, List.flatten_nil, List.append_nil, List.cons_append, List.nil_append]
  after_results
  rfl

theorem negs_array (c : Dev nD) : (V m c main_v16 : S16384x1.Idx → EReal)
    = shapeCast S16384x1 (uitofp (F := Ideal) .f32 (val_main_v10 (F := Ideal) (labels m c))) shapeCasts_S16384_S16384x1 := by
  dsimp only [Gen.V, Gen.V0]
  simp only [Gen.hostOps0, Gen.hostOps0_1, Gen.hostOps0_2, List.flatten_cons, List.flatten_nil, List.append_nil, List.cons_append, List.nil_append]
  after_results
  rfl

theorem poss_array (c : Dev nD) : (V m c main_v18 : S1x16384.Idx → EReal)
    = shapeCast S1x16384 (uitofp (F := Ideal) .f32 (val_main_v8 (F := Ideal) (labels m c))) shapeCasts_S16384_S1x16384 := by
  dsimp only [Gen.V, Gen.V0]
  simp only [Gen.hostOps0, Gen.hostOps0_1, Gen.hostOps0_2, List.flatten_cons, List.flatten_nil, List.append_nil, List.cons_append, List.nil_append]
  after_results
  rfl

/-! ## Their entries, by position -/

theorem rows_apply (c : Dev nD) (i : Fin 16384) :
    (V m c main_v11 : S16384x1.Idx → EReal) (ix2 i (0 : Fin 1)) = scoreAt (scores m c) i.val := by
  rw [rows_array]
  exact (Cert.LibKeepdims.shapeCast_a_a1_apply _ shapeCasts_S16384_S16384x1 i 0).trans (atNat_val _ i).symm

theorem cols_apply (c : Dev nD) (j : Fin 16384) :
    (V m c main_v14 : S1x16384.Idx → EReal) (ix2 (0 : Fin 1) j) = scoreAt (scores m c) j.val - margin := by
  rw [cols_array]
  refine (shapeCast_a_1a_apply _ shapeCasts_S16384_S1x16384 0 j).trans ?_
  show val_main_v6 (F := Ideal) (scores m c) (ix1 j)
      - broadcastInDim S16384 ![] bcast_S_S16384 (constant (F := Ideal) S_ .f32 0x3F333333#32) (ix1 j) = _
  rw [broadcastInDim_apply _ bcast_S_S16384 _ (ix1 j) ix0 (fun a => a.elim0)]
  exact congrArg (· - margin) (atNat_val _ j).symm

theorem negs_apply (c : Dev nD) (i : Fin 16384) :
    (V m c main_v16 : S16384x1.Idx → EReal) (ix2 i (0 : Fin 1)) = negAt (labels m c) i.val := by
  rw [negs_array]
  exact (Cert.LibKeepdims.shapeCast_a_a1_apply _ shapeCasts_S16384_S16384x1 i 0).trans (atNat_val _ i).symm

theorem poss_apply (c : Dev nD) (j : Fin 16384) :
    (V m c main_v18 : S1x16384.Idx → EReal) (ix2 (0 : Fin 1) j) = posAt (labels m c) j.val := by
  rw [poss_array]
  exact (shapeCast_a_1a_apply _ shapeCasts_S16384_S1x16384 0 j).trans (atNat_val _ j).symm

/-! ## The blocks of a grid point -/

theorem point_lt (t : Fin cfg0.N) : t.val < 128 := lt_of_lt_of_eq t.isLt N_0

theorem rowBlock_apply (c : Dev nD) (t : Fin cfg0.N) (r : Fin 1024) :
    (iblk m c 0 t : Vec Ideal S1024x1 .f32) (ix2 r (0 : Fin 1)) = scoreAt (scores m c) (r.val + 1024 * (t.val / 8)) := by
  have hN := point_lt t
  obtain ⟨e0, e1, -⟩ := win_index t
  have hlt : r.val + 1024 * (t.val / 8) < 16384 := by have := r.isLt; omega
  rw [← rows_apply m c ⟨r.val + 1024 * (t.val / 8), hlt⟩]
  unfold iblk
  rw [View.read_apply]
  show V m c main_v11 _ = V m c main_v11 _
  refine congrArg (V m c main_v11) (funext fun a => Fin.ext ?_)
  match a with
  | ⟨0, _⟩ => show win0_0.index t (0 : Fin 2) * 1024 + 1 * r.val = r.val + 1024 * (t.val / 8); rw [e0]; omega
  | ⟨1, _⟩ => show win0_0.index t (1 : Fin 2) * 1 + 1 * 0 = 0; rw [e1]

theorem colBlock_apply (c : Dev nD) (t : Fin cfg0.N) (k : Fin 2048) :
    (iblk m c 1 t : Vec Ideal S1x2048 .f32) (ix2 (0 : Fin 1) k) = scoreAt (scores m c) (k.val + 2048 * (t.val % 8)) - margin := by
  have hN := point_lt t
  obtain ⟨-, -, e0, e1, -⟩ := win_index t
  have hlt : k.val + 2048 * (t.val % 8) < 16384 := by have := k.isLt; omega
  rw [← cols_apply m c ⟨k.val + 2048 * (t.val % 8), hlt⟩]
  unfold iblk
  rw [View.read_apply]
  show V m c main_v14 _ = V m c main_v14 _
  refine congrArg (V m c main_v14) (funext fun a => Fin.ext ?_)
  match a with
  | ⟨0, _⟩ => show win0_1.index t (0 : Fin 2) * 1 + 1 * 0 = 0; rw [e0]
  | ⟨1, _⟩ => show win0_1.index t (1 : Fin 2) * 2048 + 1 * k.val = k.val + 2048 * (t.val % 8); rw [e1]; omega

theorem negBlock_apply (c : Dev nD) (t : Fin cfg0.N) (r : Fin 1024) :
    (iblk m c 2 t : Vec Ideal S1024x1 .f32) (ix2 r (0 : Fin 1)) = negAt (labels m c) (r.val + 1024 * (t.val / 8)) := by
  have hN := point_lt t
  obtain ⟨-, -, -, -, e0, e1, -⟩ := win_index t
  have hlt : r.val + 1024 * (t.val / 8) < 16384 := by have := r.isLt; omega
  rw [← negs_apply m c ⟨r.val + 1024 * (t.val / 8), hlt⟩]
  unfold iblk
  rw [View.read_apply]
  show V m c main_v16 _ = V m c main_v16 _
  refine congrArg (V m c main_v16) (funext fun a => Fin.ext ?_)
  match a with
  | ⟨0, _⟩ => show win0_2.index t (0 : Fin 2) * 1024 + 1 * r.val = r.val + 1024 * (t.val / 8); rw [e0]; omega
  | ⟨1, _⟩ => show win0_2.index t (1 : Fin 2) * 1 + 1 * 0 = 0; rw [e1]

theorem posBlock_apply (c : Dev nD) (t : Fin cfg0.N) (k : Fin 2048) :
    (iblk m c 3 t : Vec Ideal S1x2048 .f32) (ix2 (0 : Fin 1) k) = posAt (labels m c) (k.val + 2048 * (t.val % 8)) := by
  have hN := point_lt t
  obtain ⟨-, -, -, -, -, -, e0, e1, -⟩ := win_index t
  have hlt : k.val + 2048 * (t.val % 8) < 16384 := by have := k.isLt; omega
  rw [← poss_apply m c ⟨k.val + 2048 * (t.val % 8), hlt⟩]
  unfold iblk
  rw [View.read_apply]
  show V m c main_v18 _ = V m c main_v18 _
  refine congrArg (V m c main_v18) (funext fun a => Fin.ext ?_)
  match a with
  | ⟨0, _⟩ => show win0_3.index t (0 : Fin 2) * 1 + 1 * 0 = 0; rw [e0]
  | ⟨1, _⟩ => show win0_3.index t (1 : Fin 2) * 2048 + 1 * k.val = k.val + 2048 * (t.val % 8); rw [e1]; omega

/-- The total of grid point `t`'s tile is the pairwise sum's tile `(t / 8, t mod 8)`. -/
theorem tile_eq (c : Dev nD) (t : Fin cfg0.N) :
    Cert.KernelIdeal.Tile.total (iblk m c 0 t) (iblk m c 1 t) (iblk m c 3 t) (iblk m c 2 t)
      = tile 1024 2048 (scoreAt (scores m c)) (negAt (labels m c)) (posAt (labels m c)) margin cap (t.val / 8) (t.val % 8) := by
  unfold Cert.KernelIdeal.Tile.total tile
  refine Finset.sum_congr rfl fun r _ => ?_
  rw [negBlock_apply m c t r]
  refine congrArg (· * negAt (labels m c) (r.val + 1024 * (t.val / 8))) (Finset.sum_congr rfl fun k _ => ?_)
  unfold Cert.KernelIdeal.Tile.entry
  rw [posBlock_apply m c t k, colBlock_apply m c t k, rowBlock_apply m c t r]

end Cert.KernelIdeal.Blocks

end
-- ==== Proof.Cases.lean ====
/-
  What the body leaves behind at a grid point, case by case.

  At the first tile of a row band the body stores zero in its one carried number and then adds the tile's total to it;
  at a later tile it adds the tile's total to what the tile before left; at the band's last tile it also copies the
  carried number into the output block. Each of these is one store that covers its buffer, so what the buffer holds
  afterwards is that store's value, a function of the four input blocks and of the number carried in.
-/
import proofs.«161224_j532575944928_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- A later tile of a band: the carried number becomes itself plus the tile's total. -/
theorem carried_later (c : Dev nD) (i : grid0.Coords) (a2 : Memref sig .tc .vmem S1024x1 .f32) (h2 : a2.IsWhole) (a3 : Memref sig .tc .vmem S1x2048 .f32) (h3 : a3.IsWhole) (a4 : Memref sig .tc .vmem S1024x1 .f32) (h4 : a4.IsWhole) (a5 : Memref sig .tc .vmem S1x2048 .f32) (h5 : a5.IsWhole) (a6 : Memref sig .tc .vmem S1x1x1 .f32) (h6 : a6.IsWhole) (a7 : Memref sig .tc .vmem S1x1 .f32) (h7 : a7.IsWhole) (hc0 : ¬cond0_0 i) (hc1 : ¬cond0_1 i)
    (x0 : Vec F S1024x1 .f32) (x1 : Vec F S1x2048 .f32) (x2 : Vec F S1024x1 .f32) (x3 : Vec F S1x2048 .f32) (xs0 : Vec F S1x1 .f32) :
    sout0_B_0 c i a2 h2 a3 h3 a4 h4 a5 h5 a6 h6 a7 h7 hc0 hc1 x0 x1 x2 x3 xs0 = k0_pay2 x0 x1 x3 x2 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero hz]
  simp only [View.readAt_eq_ld, h2.read_unread, h3.read_unread, h4.read_unread, h5.read_unread, h7.read_unread,
    View.ld_unit_zero (S := S1024x1) hz, View.ld_unit_zero (S := S1x2048) hz, View.ld_unit_zero (S := S1x1) hz]

/-- The first tile of a band: the carried number becomes zero plus the tile's total. -/
theorem carried_first (c : Dev nD) (i : grid0.Coords) (a2 : Memref sig .tc .vmem S1024x1 .f32) (h2 : a2.IsWhole) (a3 : Memref sig .tc .vmem S1x2048 .f32) (h3 : a3.IsWhole) (a4 : Memref sig .tc .vmem S1024x1 .f32) (h4 : a4.IsWhole) (a5 : Memref sig .tc .vmem S1x2048 .f32) (h5 : a5.IsWhole) (a6 : Memref sig .tc .vmem S1x1x1 .f32) (h6 : a6.IsWhole) (a7 : Memref sig .tc .vmem S1x1 .f32) (h7 : a7.IsWhole) (hc0 : cond0_0 i) (hc1 : ¬cond0_1 i)
    (x0 : Vec F S1024x1 .f32) (x1 : Vec F S1x2048 .f32) (x2 : Vec F S1024x1 .f32) (x3 : Vec F S1x2048 .f32) :
    sout0_A_0 c i a2 h2 a3 h3 a4 h4 a5 h5 a6 h6 a7 h7 hc0 hc1 x0 x1 x2 x3 = k0_pay2 x0 x1 x3 x2 k0_pay1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread, h7.read_unread,
    View.ld_unit_zero (S := S1024x1) hz, View.ld_unit_zero (S := S1x2048) hz, View.ld_unit_zero (S := S1x1) hz]

/-- The last tile of a band: the carried number as at a later tile, -/
theorem carried_last (c : Dev nD) (i : grid0.Coords) (a2 : Memref sig .tc .vmem S1024x1 .f32) (h2 : a2.IsWhole) (a3 : Memref sig .tc .vmem S1x2048 .f32) (h3 : a3.IsWhole) (a4 : Memref sig .tc .vmem S1024x1 .f32) (h4 : a4.IsWhole) (a5 : Memref sig .tc .vmem S1x2048 .f32) (h5 : a5.IsWhole) (a6 : Memref sig .tc .vmem S1x1x1 .f32) (h6 : a6.IsWhole) (a7 : Memref sig .tc .vmem S1x1 .f32) (h7 : a7.IsWhole) (hc0 : ¬cond0_0 i) (hc1 : cond0_1 i)
    (x0 : Vec F S1024x1 .f32) (x1 : Vec F S1x2048 .f32) (x2 : Vec F S1024x1 .f32) (x3 : Vec F S1x2048 .f32) (xs0 : Vec F S1x1 .f32) :
    sout0_C_0 c i a2 h2 a3 h3 a4 h4 a5 h5 a6 h6 a7 h7 hc0 hc1 x0 x1 x2 x3 xs0 = k0_pay2 x0 x1 x3 x2 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread,
    View.ld_unit_zero (S := S1024x1) hz, View.ld_unit_zero (S := S1x2048) hz, View.ld_unit_zero (S := S1x1) hz]

/-- and the output block holds that number, recast. -/
theorem output_last (c : Dev nD) (i : grid0.Coords) (a2 : Memref sig .tc .vmem S1024x1 .f32) (h2 : a2.IsWhole) (a3 : Memref sig .tc .vmem S1x2048 .f32) (h3 : a3.IsWhole) (a4 : Memref sig .tc .vmem S1024x1 .f32) (h4 : a4.IsWhole) (a5 : Memref sig .tc .vmem S1x2048 .f32) (h5 : a5.IsWhole) (a6 : Memref sig .tc .vmem S1x1x1 .f32) (h6 : a6.IsWhole) (a7 : Memref sig .tc .vmem S1x1 .f32) (h7 : a7.IsWhole) (hc0 : ¬cond0_0 i) (hc1 : cond0_1 i)
    (x0 : Vec F S1024x1 .f32) (x1 : Vec F S1x2048 .f32) (x2 : Vec F S1024x1 .f32) (x3 : Vec F S1x2048 .f32) (xs0 : Vec F S1x1 .f32) :
    out0_C_4 c i a2 h2 a3 h3 a4 h4 a5 h5 a6 h6 a7 h7 hc0 hc1 x0 x1 x2 x3 xs0 = k0_pay3 (k0_pay2 x0 x1 x3 x2 xs0) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz3, View.readCov_unit_zero (S := S1x1) _ hz]
  simp only [View.readAt_eq_ld, h2.read_unread, h3.read_unread, h4.read_unread, h5.read_unread, h7.read_unread,
    View.ld_unit_zero (S := S1024x1) hz, View.ld_unit_zero (S := S1x2048) hz, View.ld_unit_zero (S := S1x1) hz]

end Cert.KernelIdeal.Cases

end
-- ==== Proof.Accumulate.lean ====
/-
  The carried number across a row band, and the output array.

  Grid point `t` is tile `(t / 8, t mod 8)`. After it the kernel's one carried number holds the band's tiles
  `0, …, t mod 8` added up in order from zero: the first tile of a band resets it, every later one adds to what the tile
  before left. At the band's last tile (`t mod 8 = 7`) that number is copied to the output block, which is written
  back to entry `t / 8` of the 16 × 1 × 1 output array; the 16 write-backs cover the array.
-/
import proofs.«161224_j532575944928_2_alg».proof.Proof.Blocks
import proofs.«161224_j532575944928_2_alg».proof.Proof.Cases

noncomputable section

namespace Cert.KernelIdeal.Accumulate

open Cert.KernelIdeal Cert.KernelIdeal.Gen Idealize.ShloMosaic Idealize.ShloMosaic.TcCoe Idealize.SL.Sem
open Idealize.ShloMosaic.ValueIdx
open Idealize.ShloMosaic.Pipeline (Dat)
open Cert.LibPositions Cert.PairSum Cert.KernelIdeal.Blocks
open Cert.ReferenceIdeal.RefValue (scoreAt negAt posAt margin cap)

variable (m : (ℓ : Loc nD τ sig) → Buf (Elt Ideal) ℓ)

/-- The tiles of row band `p`, by column band. -/
abbrev bandTile (c : Dev nD) (p : ℕ) : ℕ → EReal := fun q =>
  tile 1024 2048 (scoreAt (scores m c)) (negAt (labels m c)) (posAt (labels m c)) margin cap p q

/-- At a band's first tile the carried number is zero plus the tile. -/
theorem first_point (c : Dev nD) (t : Fin cfg0.N) (h0 : t.val % 8 = 0) (j : S1x1.Idx) :
    (outsAt0 m c t.val t.isLt).2 j = 0 + bandTile m c (t.val / 8) (t.val % 8) := by
  have h1 : ¬t.val % 8 = 7 := by omega
  refine (congrFun (congrArg Prod.snd (outsAt0_A m c t h0 h1)) j).trans ?_
  refine (congrFun (Cases.carried_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h))
    (iblk m c 0 t) (iblk m c 1 t) (iblk m c 2 t) (iblk m c 3 t)) j).trans ?_
  refine (Tile.pay2_apply (iblk m c 0 t) (iblk m c 1 t) (iblk m c 3 t) (iblk m c 2 t) (k0_pay1 (F := Ideal)) j).trans ?_
  rw [Tile.pay1_apply, tile_eq]

/-- At a later tile it is what the point before left plus the tile. -/
theorem later_point (c : Dev nD) (t : Fin cfg0.N) (h0 : ¬t.val % 8 = 0) (j : S1x1.Idx) :
    (outsAt0 m c t.val t.isLt).2 j = (outsAt0 m c (t.val - 1) (Nat.lt_of_le_of_lt (Nat.sub_le _ _) t.isLt)).2 j + bandTile m c (t.val / 8) (t.val % 8) := by
  by_cases h1 : t.val % 8 = 7
  · refine (congrFun (congrArg Prod.snd (outsAt0_C m c t h0 h1)) j).trans ?_
    refine (congrFun (Cases.carried_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
      (iblk m c 0 t) (iblk m c 1 t) (iblk m c 2 t) (iblk m c 3 t) (outsAt0 m c (t.val - 1) (Nat.lt_of_le_of_lt (Nat.sub_le _ _) t.isLt)).2) j).trans ?_
    refine (Tile.pay2_apply (iblk m c 0 t) (iblk m c 1 t) (iblk m c 3 t) (iblk m c 2 t) _ j).trans ?_
    rw [tile_eq]
  · refine (congrFun (congrArg Prod.snd (outsAt0_B m c t h0 h1)) j).trans ?_
    refine (congrFun (Cases.carried_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h))
      (iblk m c 0 t) (iblk m c 1 t) (iblk m c 2 t) (iblk m c 3 t) (outsAt0 m c (t.val - 1) (Nat.lt_of_le_of_lt (Nat.sub_le _ _) t.isLt)).2) j).trans ?_
    refine (Tile.pay2_apply (iblk m c 0 t) (iblk m c 1 t) (iblk m c 3 t) (iblk m c 2 t) _ j).trans ?_
    rw [tile_eq]

/-- So after point `n` the carried number is the running sum of band `n / 8`'s tiles up to `n mod 8`. -/
theorem carried_eq (c : Dev nD) : ∀ (n : ℕ) (h : n < cfg0.N) (j : S1x1.Idx),
    (outsAt0 m c n h).2 j = chain (bandTile m c (n / 8)) (n % 8)
  | 0, h, j => (first_point m c ⟨0, h⟩ rfl j).trans rfl
  | n + 1, h, j => by
    by_cases h0 : (n + 1) % 8 = 0
    · refine (first_point m c ⟨n + 1, h⟩ h0 j).trans ?_
      show 0 + bandTile m c ((n + 1) / 8) ((n + 1) % 8) = chain (bandTile m c ((n + 1) / 8)) ((n + 1) % 8)
      rw [h0]; rfl
    · refine (later_point m c ⟨n + 1, h⟩ h0 j).trans ?_
      show (outsAt0 m c n _).2 j + bandTile m c ((n + 1) / 8) ((n + 1) % 8) = chain (bandTile m c ((n + 1) / 8)) ((n + 1) % 8)
      rw [carried_eq c n _ j]
      have hd : n / 8 = (n + 1) / 8 := by omega
      obtain ⟨k, hk⟩ : ∃ k, (n + 1) % 8 = k + 1 := ⟨(n + 1) % 8 - 1, by omega⟩
      have hk' : n % 8 = k := by omega
      rw [hd, hk, hk']; rfl

/-- At a band's last tile the output block holds the band's full sum. -/
theorem output_eq (c : Dev nD) (t : Fin cfg0.N) (h7 : t.val % 8 = 7) (j : S1x1x1.Idx) :
    (outsAt0 m c t.val t.isLt).1 j = chain (bandTile m c (t.val / 8)) 7 := by
  have h0 : ¬t.val % 8 = 0 := by omega
  refine (congrFun (congrArg Prod.fst (outsAt0_C m c t h0 h7)) j).trans ?_
  refine (congrFun (Cases.output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7)
    (iblk m c 0 t) (iblk m c 1 t) (iblk m c 2 t) (iblk m c 3 t) (outsAt0 m c (t.val - 1) (Nat.lt_of_le_of_lt (Nat.sub_le _ _) t.isLt)).2) j).trans ?_
  refine (Tile.pay3_apply _ j).trans ?_
  have key := carried_eq m c t.val t.isLt (ix2 (0 : Fin 1) (0 : Fin 1))
  rw [h7] at key
  refine Eq.trans (Eq.symm ?_) key
  refine (congrFun (congrArg Prod.snd (outsAt0_C m c t h0 h7)) (ix2 (0 : Fin 1) (0 : Fin 1))).trans ?_
  exact congrFun (Cases.carried_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7)
    (iblk m c 0 t) (iblk m c 1 t) (iblk m c 2 t) (iblk m c 3 t) (outsAt0 m c (t.val - 1) (Nat.lt_of_le_of_lt (Nat.sub_le _ _) t.isLt)).2) (ix2 (0 : Fin 1) (0 : Fin 1))

/-- The output array: entry `p` is row band `p`'s sum. -/
def bandSums (c : Dev nD) : S16x1x1.Idx → EReal := fun i => chain (bandTile m c (i 0).val) 7

/-- What a write-back writes is its block of `bandSums`. -/
theorem flushed_eq (c : Dev nD) (t : Fin cfg0.N) (hf : (cfg0.win 4).flush t = true) :
    (dats m 0 c).flushed 4 t = ((cfg0.win 4).blk t).view.read (Elt Ideal) (bandSums m c) := by
  have h7 : t.val % 8 = 7 := (flush0_4 t).mp hf
  show (cfg0.win 4).cut (grid0.coords t) ((dats m 0 c).after 4 t) = _
  rw [after0_4]
  funext j
  show (outsAt0 m c t.val t.isLt).1 j = bandSums m c (((cfg0.win 4).blk t).view.emb j)
  rw [output_eq m c t h7 j]
  obtain ⟨-, -, -, -, -, -, -, -, e0, -, -⟩ := win_index t
  have hj : (j 0).val = 0 := Nat.lt_one_iff.mp (show (j 0).val < 1 from (j 0).isLt)
  show _ = chain (bandTile m c (win0_4.index t (0 : Fin 3) * 1 + 1 * (j 0).val)) 7
  rw [e0, hj, Nat.mul_one, Nat.mul_zero, Nat.add_zero]

/-- Every entry of the output array is in the block of its band's last tile. -/
theorem covered (c : Dev nD) (i : S16x1x1.Idx) :
    ∃ t : Fin cfg0.N, (cfg0.win 4).flush t = true ∧ i ∈ ((cfg0.win 4).blk t).view.set := by
  have hi0 : (i 0).val < 16 := (i 0).isLt
  have hi1 : (i 1).val = 0 := Nat.lt_one_iff.mp (show (i 1).val < 1 from (i 1).isLt)
  have hi2 : (i 2).val = 0 := Nat.lt_one_iff.mp (show (i 2).val < 1 from (i 2).isLt)
  have hN : cfg0.N = 128 := N_0
  have hlt : 8 * (i 0).val + 7 < cfg0.N := by omega
  refine ⟨⟨8 * (i 0).val + 7, hlt⟩, (flush0_4 _).mpr (by show (8 * (i 0).val + 7) % 8 = 7; omega), ?_⟩
  show i ∈ ((View.whole main_v19).slice (win0_4.rect ⟨8 * (i 0).val + 7, hlt⟩)).set
  rw [View.set_slice_whole, Rect.mem_set_unit]
  obtain ⟨-, -, -, -, -, -, -, -, e0, e1, e2⟩ := win_index ⟨8 * (i 0).val + 7, hlt⟩
  have e0' : win0_4.index ⟨8 * (i 0).val + 7, hlt⟩ (0 : Fin 3) = (i 0).val := by rw [e0]; show (8 * (i 0).val + 7) / 8 = _; omega
  intro a
  match a with
  | ⟨0, _⟩ => show win0_4.index ⟨8 * (i 0).val + 7, hlt⟩ (0 : Fin 3) * 1 ≤ (i 0).val ∧ (i 0).val < win0_4.index ⟨8 * (i 0).val + 7, hlt⟩ (0 : Fin 3) * 1 + 1
              rw [e0']; omega
  | ⟨1, _⟩ => show win0_4.index ⟨8 * (i 0).val + 7, hlt⟩ (1 : Fin 3) * 1 ≤ (i 1).val ∧ (i 1).val < win0_4.index ⟨8 * (i 0).val + 7, hlt⟩ (1 : Fin 3) * 1 + 1
              rw [e1]; omega
  | ⟨2, _⟩ => show win0_4.index ⟨8 * (i 0).val + 7, hlt⟩ (2 : Fin 3) * 1 ≤ (i 2).val ∧ (i 2).val < win0_4.index ⟨8 * (i 0).val + 7, hlt⟩ (2 : Fin 3) * 1 + 1
              rw [e2]; omega

/-- So the output array ends at the band sums. -/
theorem final_out (c : Dev nD) : (dats m 0 c).arrAt 4 cfg0.N = bandSums m c :=
  (dats m 0 c).arrAt_eq_of_cover 4 (bandSums m c) (flushed_eq m c) (covered c)

end Cert.KernelIdeal.Accumulate

end
-- ==== Proof.Tail.lean ====
/-
  The host lines after the region.

  After the region the program adds up the 16 band sums from zero, counts the labels equal to 1 and to 0 with 32-bit
  words, multiplies the two counts, reads the product as a number `n`, and returns the total divided by `n` when `n > 0`
  and zero otherwise. Here that is read off the program's text as one function of the output array and the two masks.
-/
import proofs.«161224_j532575944928_2_alg».proof.Proof.Accumulate
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx
open Cert.KernelIdeal.Blocks Cert.KernelIdeal.Accumulate
open Cert.ReferenceIdeal.Read (val_main_v8 val_main_v10)

/-- Running two stretches of host lines one after the other. -/
theorem after_append {Val : EltTy → Type} (l1 l2 : List (HloOp τ sig Val)) (W : Valuation τ sig Val) :
    StableHlo.after (l1 ++ l2) W = StableHlo.after l2 (StableHlo.after l1 W) := by
  induction l1 generalizing W with
  | nil => rfl
  | cons op l ih => exact ih _

/-- The number of pairs: the two label counts multiplied as words, read as a signed number. -/
def pairCount (pos neg : S16384.Idx → BitVec 1) : S_.Idx → EReal :=
  sitofp (F := Ideal) .f32 (muli
    (Host.reduce IntOp.addi (extui 32 pos natLt_1_32) (constantI S_ 32 0#32) reducesTo_S16384_S_d0 h_S_)
    (Host.reduce IntOp.addi (extui 32 neg natLt_1_32) (constantI S_ 32 0#32) reducesTo_S16384_S_d0 h_S_))

/-- The tail as a function of the output array and the two masks. -/
def tailFn (out : S16x1x1.Idx → EReal) (pos neg : S16384.Idx → BitVec 1) : S_.Idx → EReal :=
  select (cmpf .ogt (pairCount pos neg) (constant (F := Ideal) S_ .f32 0x00000000#32))
    (Host.divf (Host.reduceAdd (F := Ideal) out (constant (F := Ideal) S_ .f32 0x00000000#32) reducesTo_S16x1x1_S_d0_1_2 h_S_) (pairCount pos neg))
    (constant (F := Ideal) S_ .f32 0x00000000#32)

variable (W : Valuation τ sig (Elt Ideal))

theorem quotient_line : (StableHlo.after hostOps1 W (Proc.devRef .tc main_v28) : S_.Idx → EReal)
    = Host.divf (Host.reduceAdd (F := Ideal) (W (Proc.devRef .tc main_v19)) (constant (F := Ideal) S_ .f32 0x00000000#32) reducesTo_S16x1x1_S_d0_1_2 h_S_)
        (pairCount (W (Proc.devRef .tc main_v8)) (W (Proc.devRef .tc main_v10))) := by
  after_results
  rfl

theorem guard_line : (StableHlo.after hostOps1 W (Proc.devRef .tc main_v27) : S_.Idx → BitVec 1)
    = cmpf .ogt (pairCount (W (Proc.devRef .tc main_v8)) (W (Proc.devRef .tc main_v10))) (constant (F := Ideal) S_ .f32 0x00000000#32) := by
  after_results
  rfl

theorem zero_line : (StableHlo.after hostOps1 W (Proc.devRef .tc main_cst_9) : S_.Idx → EReal)
    = constant (F := Ideal) S_ .f32 0x00000000#32 := by
  after_results

theorem select_line (X : Valuation τ sig (Elt Ideal)) : (StableHlo.after hostOps1_1 X (Proc.devRef .tc main_v29) : S_.Idx → EReal)
    = select (X (Proc.devRef .tc main_v27) : S_.Idx → BitVec 1) (X (Proc.devRef .tc main_v28) : S_.Idx → EReal)
        (X (Proc.devRef .tc main_cst_9) : S_.Idx → EReal) := by
  after_results
  rfl

/-- The tail's result over any contents of the buffers it reads. -/
theorem tail_result : (StableHlo.after (hostOps1 ++ (hostOps1_1 ++ [])) W (Proc.devRef .tc main_v29) : S_.Idx → EReal)
    = tailFn (W (Proc.devRef .tc main_v19)) (W (Proc.devRef .tc main_v8)) (W (Proc.devRef .tc main_v10)) := by
  rw [after_append, after_append]
  show (StableHlo.after hostOps1_1 (StableHlo.after hostOps1 W) (Proc.devRef .tc main_v29) : S_.Idx → EReal) = _
  rw [select_line, quotient_line, guard_line, zero_line]
  rfl

variable (m : (ℓ : Loc nD τ sig) → Buf (Elt Ideal) ℓ)

/-- The masks as the region finds them. -/
theorem pos_array (c : Dev nD) : (V m c main_v8 : S16384.Idx → BitVec 1) = val_main_v8 (F := Ideal) (labels m c) := by
  dsimp only [Gen.V, Gen.V0]
  simp only [Gen.hostOps0, Gen.hostOps0_1, Gen.hostOps0_2, List.flatten_cons, List.flatten_nil, List.append_nil, List.cons_append, List.nil_append]
  after_results
  rfl

theorem neg_array (c : Dev nD) : (V m c main_v10 : S16384.Idx → BitVec 1) = val_main_v10 (F := Ideal) (labels m c) := by
  dsimp only [Gen.V, Gen.V0]
  simp only [Gen.hostOps0, Gen.hostOps0_1, Gen.hostOps0_2, List.flatten_cons, List.flatten_nil, List.append_nil, List.cons_append, List.nil_append]
  after_results
  rfl

/-- The program's result after the run the frame states: the tail of the band sums and the two masks. -/
theorem result_eq (c : Dev nD) :
    (Pipeline.afterTail₀ cfgs (dats m) 0 (V0 m) [hostOps1, hostOps1_1] c main_v29 : S_.Idx → EReal)
      = tailFn (bandSums m c) (val_main_v8 (F := Ideal) (labels m c)) (val_main_v10 (F := Ideal) (labels m c)) := by
  unfold Pipeline.afterTail₀
  refine (tail_result _).trans ?_
  have e19 := (Pipeline.withArrays_arr spec0 launch0.win.arr_inj c (V0 m c) (fun w => (dats m 0 c).arrAt w (cfgs 0).N) 4).trans (final_out m c)
  have e8 := (Pipeline.withArrays_of_ne spec0 c (V0 m c) (fun w => (dats m 0 c).arrAt w (cfgs 0).N) main_v8
    (by exact (by decide : ∀ w, Pipeline.arrRef spec0 w ≠ main_v8))).trans (pos_array m c)
  have e10 := (Pipeline.withArrays_of_ne spec0 c (V0 m c) (fun w => (dats m 0 c).arrAt w (cfgs 0).N) main_v10
    (by exact (by decide : ∀ w, Pipeline.arrRef spec0 w ≠ main_v10))).trans (neg_array m c)
  exact congr (congr (congrArg tailFn e19) e8) e10

end Cert.KernelIdeal.Tail

end
-- ==== Proof.LibLabelCount.lean ====
/-
  Counting labels with 32-bit words.

  A mask is an array of bits. Reduced by `or` from 0, it gives 1 exactly when some bit is 1. Widened to 32-bit words
  and reduced by `+` from 0, it gives the number of 1 bits: with at most 16384 entries the running sum stays far below
  2^32, so no addition wraps. Hence if two masks of at most 16384 bits each hold a 1, both counts lie between 1 and
  16384, their word product is the product of the counts (at most 2^28, so it does not wrap either and its sign bit
  is clear), and read as a signed integer the product is positive.
-/
import Idealize.ShloMosaic.Lib.ReduceAll
import Idealize.ShloMosaic.PureOps.Reduce

namespace Cert.LibLabelCount

open Idealize.ShloMosaic

/-- An `or` of two bits that is 1 had a 1 on one side. -/
theorem ori_eq_one (c d : BitVec 1) : IntOp.ori c d = 1#1 → c = 1#1 ∨ d = 1#1 := by revert c d; decide

/-- A left fold by `or` over bits that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases ori_eq_one init (f a) h1 with hi | ha
      · exact Or.inl hi
      · exact Or.inr ⟨a, List.mem_cons_self, ha⟩
    · exact Or.inr ⟨n, List.mem_cons_of_mem _ hn, hf⟩

/-- A left fold by `+` over words each 0 or 1, started low enough, never wraps: it counts. -/
theorem foldl_addi_toNat {ι : Type} (f : ι → BitVec 32) :
    ∀ (l : List ι) (init : BitVec 32), (∀ n ∈ l, (f n).toNat ≤ 1) → init.toNat + l.length < 2 ^ 32 →
      (l.foldl (fun r n => IntOp.addi r (f n)) init).toNat = init.toNat + (l.map fun n => (f n).toNat).sum
  | [], init, _, _ => by simp
  | a :: l, init, hf, hb => by
    have ha : (f a).toNat ≤ 1 := hf a List.mem_cons_self
    have hlen : (a :: l).length = l.length + 1 := List.length_cons
    have hstep : (IntOp.addi init (f a)).toNat = init.toNat + (f a).toNat := by
      show (init + f a).toNat = _
      rw [BitVec.toNat_add]
      exact Nat.mod_eq_of_lt (by omega)
    rw [List.foldl_cons, foldl_addi_toNat f l _ (fun n hn => hf n (List.mem_cons_of_mem _ hn)) (by omega), hstep,
      List.map_cons, List.sum_cons]
    omega

/-- A list of zeros and ones sums to at most its length, -/
theorem sum_le_length {ι : Type} (g : ι → ℕ) : ∀ l : List ι, (∀ n ∈ l, g n ≤ 1) → (l.map g).sum ≤ l.length
  | [], _ => by simp
  | a :: l, h => by
    have := sum_le_length g l fun n hn => h n (List.mem_cons_of_mem _ hn)
    have := h a List.mem_cons_self
    rw [List.map_cons, List.sum_cons, List.length_cons]; omega

/-- and to at least one if a one is among them. -/
theorem one_le_sum {ι : Type} (g : ι → ℕ) : ∀ l : List ι, (∃ n ∈ l, g n = 1) → 1 ≤ (l.map g).sum
  | [], ⟨_, hn, _⟩ => nomatch hn
  | a :: l, ⟨n, hn, hg⟩ => by
    rw [List.map_cons, List.sum_cons]
    rcases List.mem_cons.1 hn with rfl | hn
    · omega
    · have := one_le_sum g l ⟨n, hn, hg⟩; omega

/-- A bit widened to a word is 0 or 1, and is 1 when the bit is. -/
theorem widen_le_one (b : BitVec 1) : (b.setWidth 32).toNat ≤ 1 := by revert b; decide
theorem widen_one : ((1#1 : BitVec 1).setWidth 32).toNat = 1 := by decide

variable {s t u : Shape} {axes : List (Fin s.rank)}

/-- The number of 1 bits of a mask of at most 16384 bits that holds a 1, counted by a word reduce, is between 1 and 16384. -/
theorem count_bounds (p : s.Idx → BitVec 1) (i0 : u.Idx → BitVec 1) (c0 : u.Idx → BitVec 32) (h : s.ReducesTo axes t)
    (hu : 0 < u.numel) (j : t.Idx) (hs : s.numel ≤ 16384) (hi0 : ∀ k, i0 k = 0#1) (hc0 : ∀ k, c0 k = 0#32)
    (hp : Host.reduce IntOp.ori p i0 h hu j = 1#1) :
    1 ≤ (Host.reduce IntOp.addi (fun i => (p i).setWidth 32) c0 h hu j).toNat
      ∧ (Host.reduce IntOp.addi (fun i => (p i).setWidth 32) c0 h hu j).toNat ≤ 16384 := by
  rw [Host.reduce_eq_foldl] at hp ⊢
  rw [hi0] at hp
  rw [hc0]
  generalize hL : (((List.finRange s.numel).map s.rowMajor.symm).filter fun i => h.drop i = j) = L at hp ⊢
  have hlen : L.length ≤ 16384 := by
    rw [← hL]
    exact (List.length_filter_le _ _).trans (by rw [List.length_map, List.length_finRange]; exact hs)
  have hle : ∀ n ∈ L, ((p n).setWidth 32).toNat ≤ 1 := fun n _ => widen_le_one _
  rw [foldl_addi_toNat (fun i => (p i).setWidth 32) L 0#32 hle (by simp; omega)]
  have hex : ∃ n ∈ L, ((p n).setWidth 32).toNat = 1 := by
    rcases foldl_ori_eq_one p L 0#1 hp with h0 | ⟨n, hn, hn1⟩
    · exact absurd h0 (by decide)
    · exact ⟨n, hn, by rw [hn1]; exact widen_one⟩
  have h1 := one_le_sum (fun n => ((p n).setWidth 32).toNat) L hex
  have h2 := sum_le_length (fun n => ((p n).setWidth 32).toNat) L hle
  simp only [BitVec.toNat_ofNat, Nat.zero_mod, Nat.zero_add]
  omega

/-- The word product of two counts between 1 and 16384 is positive read as a signed integer. -/
theorem muli_toInt_pos (P Q : BitVec 32) (hP : 1 ≤ P.toNat ∧ P.toNat ≤ 16384) (hQ : 1 ≤ Q.toNat ∧ Q.toNat ≤ 16384) :
    0 < (IntOp.muli P Q).toInt := by
  have hpos : 1 ≤ P.toNat * Q.toNat := Nat.mul_le_mul hP.1 hQ.1
  have hsmall : P.toNat * Q.toNat ≤ 16384 * 16384 := Nat.mul_le_mul hP.2 hQ.2
  have hmul : (IntOp.muli P Q).toNat = P.toNat * Q.toNat := by
    show (P * Q).toNat = _
    rw [BitVec.toNat_mul]
    exact Nat.mod_eq_of_lt (by omega)
  rw [BitVec.toInt_eq_toNat_cond, hmul]
  split
  · exact_mod_cast hpos
  · omega

end Cert.LibLabelCount
-- ==== Proof.Bridge.lean ====
/-
  The two results are one number.

  Under the precondition some label is 1 and some label is 0, so both label counts are between 1 and 16384 and the number
  of pairs `n` is positive; the kernel's guard `n > 0` then passes and its result is the sum of the 16 band sums over `n`.
  The band sums add up to the tiled pair sum, which is the flat pair sum the reference divides by the same `n`.
-/
import proofs.«161224_j532575944928_2_alg».proof.Proof.Tail
import proofs.«161224_j532575944928_2_alg».proof.Proof.LibLabelCount
import proofs.«161224_j532575944928_2_alg».proof.Proof.Gen.Pre_finite_inputs
import Idealize.ShloMosaic.Lib.Affine

noncomputable section

namespace Cert.KernelIdeal.Bridge

open Cert.KernelIdeal Cert.KernelIdeal.Gen Idealize.ShloMosaic Idealize.ShloMosaic.TcCoe Idealize.SL.Sem
open Idealize.ShloMosaic.ValueIdx
open Cert.LibPositions Cert.PairSum Cert.KernelIdeal.Blocks Cert.KernelIdeal.Accumulate Cert.KernelIdeal.Tail
open Cert.ReferenceIdeal.RefValue (scoreAt negAt posAt margin cap negAt_mask)
open Cert.ReferenceIdeal.Read (val_main_v8 val_main_v10 val_main_v31)

/-- The reference's divisor is the kernel's pair count of the same masks. -/
theorem pairCount_eq (x1 : S16384.Idx → BitVec 32) :
    pairCount (val_main_v8 (F := Ideal) x1) (val_main_v10 (F := Ideal) x1) = val_main_v31 (F := Ideal) x1 := rfl

/-- Under the precondition the number of pairs is positive. -/
theorem pairs_pos (x0 : S16384.Idx → EReal) (x1 : S16384.Idx → BitVec 32)
    (hpre : Cert.Pre_finite_inputs.fn (F := Ideal) x0 x1 = fun _ => 1#1) (i : S_.Idx) :
    (0 : EReal) < pairCount (val_main_v8 (F := Ideal) x1) (val_main_v10 (F := Ideal) x1) i := by
  have h := congrFun hpre ix0
  dsimp only [Cert.Pre_finite_inputs.fn] at h
  obtain ⟨h12, hneg⟩ := IntOp.andi_eq_one.1 h
  obtain ⟨-, hpos⟩ := IntOp.andi_eq_one.1 h12
  have hs : S16384.numel ≤ 16384 := by decide
  have bP := Cert.LibLabelCount.count_bounds (val_main_v8 (F := Ideal) x1) (constantI S_ 1 0#1) (constantI S_ 32 0#32)
    reducesTo_S16384_S_d0 h_S_ ix0 hs (fun _ => rfl) (fun _ => rfl) hpos
  have bQ := Cert.LibLabelCount.count_bounds (val_main_v10 (F := Ideal) x1) (constantI S_ 1 0#1) (constantI S_ 32 0#32)
    reducesTo_S16384_S_d0 h_S_ ix0 hs (fun _ => rfl) (fun _ => rfl) hneg
  have hint := Cert.LibLabelCount.muli_toInt_pos _ _ bP bQ
  rw [eq_ix0 i]
  show (0 : EReal) < (((IntOp.muli _ _).toInt : ℝ) : EReal)
  exact EReal.coe_pos.2 (Int.cast_pos.2 hint)

/-- With a positive pair count the tail is the total over the count. -/
theorem tailFn_of_pos (out : S16x1x1.Idx → EReal) (pos neg : S16384.Idx → BitVec 1) (i : S_.Idx)
    (hn : (0 : EReal) < pairCount pos neg i) :
    tailFn out pos neg i = Ideal.div (∑ k : S16x1x1.Idx, out k) (pairCount pos neg i) := by
  have hsum : Host.reduceAdd (F := Ideal) out (constant (F := Ideal) S_ .f32 0x00000000#32) reducesTo_S16x1x1_S_d0_1_2 h_S_ i
      = ∑ k : S16x1x1.Idx, out k := by
    simp only [Host.reduceAdd, Ideal.hostReduceAdd_def]
    refine (Ideal.hostReduceAdd_total reducesTo_S16x1x1_S_d0_1_2 (fun b => b.elim0) out _ i).trans ?_
    show Ideal.ofBits .f32 0x00000000#32 + _ = _
    rw [Ideal.ofBits_zero_f32, zero_add]
  have hcmp : cmpf .ogt (pairCount pos neg) (constant (F := Ideal) S_ .f32 0x00000000#32) i = 1#1 := by
    show Ideal.cmp .ogt (pairCount pos neg i) (Ideal.ofBits .f32 0x00000000#32) = 1#1
    rw [Ideal.ofBits_zero_f32]
    simp [Ideal.cmp, hn]
  unfold tailFn
  rw [select_apply, hcmp, select_one]
  show Ideal.div (Host.reduceAdd (F := Ideal) out (constant (F := Ideal) S_ .f32 0x00000000#32) reducesTo_S16x1x1_S_d0_1_2 h_S_ i) _ = _
  rw [hsum]

/-- A sum over the 16 × 1 × 1 array is the sum over its 16 entries. -/
theorem sum_sixteen (f : S16x1x1.Idx → EReal) : ∑ k : S16x1x1.Idx, f k = ∑ p : Fin 16, f (ix3 p (0 : Fin 1) (0 : Fin 1)) := by
  refine (Fintype.sum_equiv
    { toFun := fun p : Fin 16 => (ix3 p (0 : Fin 1) (0 : Fin 1) : S16x1x1.Idx)
      invFun := fun k => k 0
      left_inv := fun _ => rfl
      right_inv := fun k => by
        funext a
        match a with
        | ⟨0, _⟩ => rfl
        | ⟨1, _⟩ => exact Subsingleton.elim (α := Fin 1) _ _
        | ⟨2, _⟩ => exact Subsingleton.elim (α := Fin 1) _ _ } _ _ (fun _ => rfl)).symm

variable (m : (ℓ : Loc nD τ sig) → Buf (Elt Ideal) ℓ)

/-- The band sums add up to the flat pair sum. -/
theorem bandSums_total (c : Dev nD) :
    ∑ k : S16x1x1.Idx, bandSums m c k
      = flat 16384 (scoreAt (scores m c)) (negAt (labels m c)) (posAt (labels m c)) margin cap := by
  rw [sum_sixteen]
  have key := tiled_eq_flat 16 1024 7 2048 (scoreAt (scores m c)) (negAt (labels m c)) (posAt (labels m c)) margin cap
    (negAt_mask (labels m c)) (by norm_num)
  exact key

/-- The kernel's result is the reference's: the flat pair sum over the number of pairs. -/
theorem result_eq_reference (c : Dev nD)
    (hpre : Cert.Pre_finite_inputs.fn (F := Ideal) (scores m c) (labels m c) = fun _ => 1#1) (i : S_.Idx) :
    tailFn (bandSums m c) (val_main_v8 (F := Ideal) (labels m c)) (val_main_v10 (F := Ideal) (labels m c)) i
      = Ideal.div (flat 16384 (scoreAt (scores m c)) (negAt (labels m c)) (posAt (labels m c)) margin cap)
          (val_main_v31 (F := Ideal) (labels m c) i) := by
  rw [tailFn_of_pos _ _ _ i (pairs_pos (scores m c) (labels m c) hpre i), bandSums_total, pairCount_eq]

end Cert.KernelIdeal.Bridge

end
-- ==== Proof.lean ====
/-
  The pairwise hinge loss of 16384 clipped scores: a tiled, accumulated kernel against the full-matrix reference.

  Both programs clip the sigmoid of the scores to `y`, take the labels equal to 1 as a column mask `pos` and those equal
  to 0 as a row mask `neg`, and want `∑_{i,j} neg i · pos j · min (y j − y i − γ, 0)² / n` with `n` the number of (0-label,
  1-label) pairs. The reference forms the 16384 × 16384 matrix and sums it. The kernel takes `γ` off the column scores
  first, cuts the matrix into 16 × 8 tiles of 1024 × 2048, sums each tile row by row with the column mask inside and the
  row mask outside, accumulates the 8 tiles of a row band in one carried number, writes the 16 band sums out, and the
  host adds them, divides by `n`, and returns zero instead when `n` is not positive.

  At the ideal values sums and products may be regrouped freely and a 0/1 mask distributes over a sum, so the 16 band
  sums add up to the reference's sum whatever the scores are. The two results then differ only where `n = 0`: there the
  reference divides zero by zero. The precondition asks for a label 1 and a label 0 to be present, which makes `n`
  positive — counted in 32-bit words that cannot wrap at this size — so the kernel's guard passes and both results are
  the same quotient.

  The kernel's two frames are the generated ones; the reference's frame is its generated run with the result dropped;
  the idealization rewrote nothing.
-/
import proofs.«161224_j532575944928_2_alg».proof.Defs
import proofs.«161224_j532575944928_2_alg».proof.Proof.Gen.Kernel
import proofs.«161224_j532575944928_2_alg».proof.Proof.Gen.Kernel.Skeleton
import proofs.«161224_j532575944928_2_alg».proof.Proof.Gen.Kernel.Launch
import proofs.«161224_j532575944928_2_alg».proof.Proof.Gen.Kernel.Points
import proofs.«161224_j532575944928_2_alg».proof.Proof.Gen.Kernel.Frame
import proofs.«161224_j532575944928_2_alg».proof.Proof.Gen.KernelIdeal
import proofs.«161224_j532575944928_2_alg».proof.Proof.Gen.KernelIdeal.Skeleton
import proofs.«161224_j532575944928_2_alg».proof.Proof.Gen.KernelIdeal.Launch
import proofs.«161224_j532575944928_2_alg».proof.Proof.Gen.KernelIdeal.Points
import proofs.«161224_j532575944928_2_alg».proof.Proof.Gen.KernelIdeal.Frame
import proofs.«161224_j532575944928_2_alg».proof.Proof.Gen.ReferenceIdeal
import proofs.«161224_j532575944928_2_alg».proof.Proof.Gen.Pre_finite_inputs
import proofs.«161224_j532575944928_2_alg».proof.Proof.Gen.ReferenceIdeal.Run
import proofs.«161224_j532575944928_2_alg».proof.Proof.Gen.ReferenceIdeal.Read
import proofs.«161224_j532575944928_2_alg».proof.Proof.Bridge
import Idealize.ShloMosaic.Adequacy
import Idealize.ShloMosaic.Init

noncomputable section

namespace Cert.Proof

open Idealize.ShloMosaic Idealize.ShloMosaic.TcCoe Idealize.SL.Sem

/-- The idealized kernel's run, read: its result is the host tail of the 16 band sums and the two masks; its
    arguments end unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v29)
          = Cert.KernelIdeal.Tail.tailFn (Cert.KernelIdeal.Accumulate.bandSums m c)
              (Cert.ReferenceIdeal.Read.val_main_v8 (F := Ideal) (Cert.KernelIdeal.Blocks.labels m c))
              (Cert.ReferenceIdeal.Read.val_main_v10 (F := Ideal) (Cert.KernelIdeal.Blocks.labels m c))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c =>
    ⟨((h c).2 Cert.KernelIdeal.main_v29 (Pipeline.mem_restRefs_of Cert.KernelIdeal.main_v29 (by decide) (by decide))).trans
        (Cert.KernelIdeal.Tail.result_eq m c),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c)⟩)
    (Cert.KernelIdeal.Gen.run_main m ρ)

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both programs end at the flat pair sum over the number of pairs. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, kernel_run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v35_eq, (hagree c).1, (hagree c).2]
  funext i
  rw [Cert.ReferenceIdeal.RefValue.result_apply]
  exact (Cert.KernelIdeal.Bridge.result_eq_reference m c (hpre c) i).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
